-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel

variable [Facts]

def fn {F : FTy → Type} [FloatOps F] (main_arg0 : FVec F S8x2048x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  main_v3
-- ==== Kernel.lean ====
abbrev S8x2048x2048 : Shape := ⟨3, ![8, 2048, 2048]⟩
abbrev S1x2048x2048 : Shape := ⟨3, ![1, 2048, 2048]⟩
abbrev S1x256x2048 : Shape := ⟨3, ![1, 256, 2048]⟩
abbrev S1x1x2048 : Shape := ⟨3, ![1, 1, 2048]⟩
abbrev S256x2048 : Shape := ⟨2, ![256, 2048]⟩
abbrev S2048 : Shape := ⟨1, ![2048]⟩
abbrev S256 : Shape := ⟨1, ![256]⟩
abbrev S256x1 : Shape := ⟨2, ![256, 1]⟩
abbrev S1x2048 : Shape := ⟨2, ![1, 2048]⟩
abbrev S8x2048x2048x1 : Shape := ⟨4, ![8, 2048, 2048, 1]⟩

abbrev nBuf : Space → Nat
  | .hbm => 4
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S8x2048x2048x1, .f32⟩
  | .local _ .vmem, ⟨0, _⟩ => ⟨S1x2048x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x1x2048, .f32⟩
  | .local _ .vmem, ⟨4, _⟩ => ⟨S1x1x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  inb_S1x2048x2048_S1x256x2048_0_0_0 : ∀ a, (![0, 0, 0] : Fin 3 → Nat) a + S1x256x2048.size a ≤ S1x2048x2048.size a
  h_S1x256x2048 : 0 < S1x256x2048.numel
  shapeCasts_S1x256x2048_S256x2048 : S1x256x2048.ShapeCasts S256x2048
  shapeCasts_S1x1x2048_S2048 : S1x1x2048.ShapeCasts S2048
  reduces_S256x2048_S2048 : S256x2048.Reduces [0] S2048
  shapeCasts_S2048_S1x1x2048 : S2048.ShapeCasts S1x1x2048
  inb_S1x2048x2048_S1x256x2048_0_256_0 : ∀ a, (![0, 256, 0] : Fin 3 → Nat) a + S1x256x2048.size a ≤ S1x2048x2048.size a
  inb_S1x2048x2048_S1x256x2048_0_512_0 : ∀ a, (![0, 512, 0] : Fin 3 → Nat) a + S1x256x2048.size a ≤ S1x2048x2048.size a
  inb_S1x2048x2048_S1x256x2048_0_768_0 : ∀ a, (![0, 768, 0] : Fin 3 → Nat) a + S1x256x2048.size a ≤ S1x2048x2048.size a
  inb_S1x2048x2048_S1x256x2048_0_1024_0 : ∀ a, (![0, 1024, 0] : Fin 3 → Nat) a + S1x256x2048.size a ≤ S1x2048x2048.size a
  inb_S1x2048x2048_S1x256x2048_0_1280_0 : ∀ a, (![0, 1280, 0] : Fin 3 → Nat) a + S1x256x2048.size a ≤ S1x2048x2048.size a
  inb_S1x2048x2048_S1x256x2048_0_1536_0 : ∀ a, (![0, 1536, 0] : Fin 3 → Nat) a + S1x256x2048.size a ≤ S1x2048x2048.size a
  inb_S1x2048x2048_S1x256x2048_0_1792_0 : ∀ a, (![0, 1792, 0] : Fin 3 → Nat) a + S1x256x2048.size a ≤ S1x2048x2048.size a
  reduces_S256x2048_S256 : S256x2048.Reduces [1] S256
  shapeCasts_S256_S256x1 : S256.ShapeCasts S256x1
  broadcasts_S256x1_S256x2048 : S256x1.Broadcasts S256x2048
  shapeCasts_S1x1x2048_S1x2048 : S1x1x2048.ShapeCasts S1x2048
  broadcasts_S1x2048_S256x2048 : S1x2048.Broadcasts S256x2048
  inb_S1x256x2048_S1x256x2048_0_0_0 : ∀ a, (![0, 0, 0] : Fin 3 → Nat) a + S1x256x2048.size a ≤ S1x256x2048.size a
  shapeCasts_S256x2048_S1x256x2048 : S256x2048.ShapeCasts S1x256x2048
  bcast_S8x2048x2048_S8x2048x2048x1_0_1_2 : S8x2048x2048.BroadcastsInDim S8x2048x2048x1 (![0, 1, 2] : Fin 3 → Fin S8x2048x2048x1.rank)
  hrank0 : 0 < grid0.rank
  k0_mult1_dvd : ∀ i : grid0.Coords, 256 ∣ (k0_mult1 i).toNat
  k0_off1_inb : ∀ i : grid0.Coords, ∀ a, (k0_off1 i) a + S1x256x2048.size a ≤ S1x2048x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S8x2048x2048.size a
  hwx0_0 : ∀ i : grid0.Coords, EltTy.bits .f32 = 32 ∨ (Rect.block (s := S8x2048x2048) S1x2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x2048x2048.size a
  hwx0_1 : ∀ i : grid0.Coords, EltTy.bits .f32 = 32 ∨ (Rect.block (s := S8x2048x2048) S1x256x2048.size (cc0_transform_1 i) (hinb0_1 i)).WholeWords (EltTy.packing .f32)

variable [Facts₀]

abbrev win0_0 : Pipeline.Window sig grid0 :=
  Pipeline.Window.ofSpec (Memref.whole main_arg0) S1x2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048x1 : Shape := ⟨4, ![8, 2048, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S_, .f32⟩
  | .hbm, ⟨3, _⟩ => ⟨S8x2048, .f32⟩
  | .hbm, ⟨4, _⟩ => ⟨S8x2048x1, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x1x2048, .f32⟩
  | .hbm, ⟨23, _⟩ => ⟨S_, .f32⟩
  | .hbm, ⟨24, _⟩ => ⟨S8x2048, .f32⟩
  | .hbm, ⟨25, _⟩ => ⟨S8x1x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048x1, .f32⟩
  | .hbm, ⟨40, _⟩ => ⟨S8x2048x2048x1, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d1 : S8x2048x2048.ReducesTo [1] S8x2048
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S8x2048x2048_S8x2048x2048x1_0_1_2 : S8x2048x2048.BroadcastsInDim S8x2048x2048x1 (![0, 1, 2] : Fin 3 → Fin S8x2048x2048x1.rank)

variable [Facts₀]

class Facts : Prop extends Facts₀ where

variable [Facts]
-- ==== Proof.Spec.lean ====
/-
  The specification.  For an array `x` of 8 matrices of 2048 rows and 2048 columns, entry `(b, r, d)` of the
  result is the smaller of two leave-one-out variances of `x (b, r, d)`: the one of its row (the row's total and
  total of squares, with the entry's own share removed, scaled by `κ`; the scaled sum of squares minus the square
  of the scaled sum) and the same of its column.  The result is then turned upside down: row `r` of the final array
  is row `2047 - r` of that, and a last axis of extent one is added.

  A column total can be taken 256 rows at a time: the sum over the 2048 rows is the sum, over the 8 groups of 256
  consecutive rows, of each group's sum (`sum_groups`), in particular the chain that starts from zero and adds the
  groups' sums first to last (`chain_eq_sum`).  Addition of extended reals is commutative and associative at the
  infinities too, so no entry needs to be finite.
-/
import Idealize.ShloMosaic.PureOps.Ideal
import Idealize.ShloMosaic.Lib.ValueIdx

noncomputable section

open scoped BigOperators

namespace Cert.Spec

open Idealize.ShloMosaic Idealize.ShloMosaic.ValueIdx

/-- The argument: 8 matrices of 2048 × 2048 extended reals. -/
abbrev Arr : Type := (⟨3, ![8, 2048, 2048]⟩ : Shape).Idx → EReal
/-- The result: the same with a last axis of extent one. -/
abbrev Res : Type := (⟨4, ![8, 2048, 2048, 1]⟩ : Shape).Idx → EReal

/-- The total of row `r` of matrix `b`. -/
def rowTot (x : Arr) (b : Fin 8) (r : Fin 2048) : EReal := ∑ k : Fin 2048, x (ix3 b r k)
/-- The total of column `d` of matrix `b`. -/
def colTot (x : Arr) (b : Fin 8) (d : Fin 2048) : EReal := ∑ r : Fin 2048, x (ix3 b r d)
/-- The entries squared. -/
def sq (x : Arr) : Arr := fun i => x i * x i

/-- The leave-one-out variance of an entry `v` among entries of total `s` and total of squares `ss`. -/
def looVar (κ s ss v : EReal) : EReal := (ss - v * v) * κ - ((s - v) * κ) * ((s - v) * κ)

/-- The smaller of the entry's row and column leave-one-out variances. -/
def looMin (κ : EReal) (x : Arr) (b : Fin 8) (r d : Fin 2048) : EReal :=
  min (looVar κ (rowTot x b r) (rowTot (sq x) b r) (x (ix3 b r d)))
    (looVar κ (colTot x b d) (colTot (sq x) b d) (x (ix3 b r d)))

/-- Before the rows are reversed: entry `(b, r, d)`. -/
def core (κ : EReal) (x : Arr) : Arr := fun i => looMin κ x (i 0) (i 1) (i 2)

/-- The result: rows reversed, a unit axis added. -/
def G (κ : EReal) (x : Arr) : Res := fun j => looMin κ x (j 0) (j 1).rev (j 2)

/-- Row `p` of group `g` of 256 rows. -/
abbrev grp (g : Fin 8) (p : Fin 256) : Fin 2048 := ⟨256 * g.val + p.val, by omega⟩

/-- A sum over 2048 rows is the sum over the 8 groups of each group's sum. -/
theorem sum_groups {M : Type} [AddCommMonoid M] (f : Fin 2048 → M) :
    ∑ r : Fin 2048, f r = ∑ g : Fin 8, ∑ p : Fin 256, f (grp g p) := by
  rw [← Equiv.sum_comp (finProdFinEquiv (m := 8) (n := 256)) f, Fintype.sum_prod_type]
  refine Finset.sum_congr rfl fun g _ => Finset.sum_congr rfl fun p _ => congrArg f (Fin.ext ?_)
  show p.val + 256 * g.val = 256 * g.val + p.val
  omega

/-- The chain that starts from zero and adds the 8 groups' sums first to last is the whole sum. -/
theorem chain_eq_sum {M : Type} [AddCommMonoid M] (f : Fin 2048 → M) :
    0 + (∑ p : Fin 256, f (grp 0 p)) + (∑ p : Fin 256, f (grp 1 p)) + (∑ p : Fin 256, f (grp 2 p))
      + (∑ p : Fin 256, f (grp 3 p)) + (∑ p : Fin 256, f (grp 4 p)) + (∑ p : Fin 256, f (grp 5 p))
      + (∑ p : Fin 256, f (grp 6 p)) + (∑ p : Fin 256, f (grp 7 p)) = ∑ r : Fin 2048, f r := by
  rw [sum_groups f, Fin.sum_univ_eight, zero_add]

end Cert.Spec

end
-- ==== Proof.RefValue.lean ====
/-
  The reference's result as a function of its argument, index by index.  At index `(b, r, d, 0)` of the result the
  reference reads, through the final reversal of axis 1, the un-reversed array at row `2047 - r`; that array holds the
  smaller of two differences.  The first is the row's leave-one-out variance: the row's total of squares less the
  entry's square, scaled, minus the square of the scaled (row total less the entry), the totals being the host's sums
  over axis 2 started from zero.  The second is the same over the column (sums over axis 1).  These are the
  specification's `looVar` at `rowTot` and at `colTot`, so the result is the specification's `G`.
-/
import proofs.«121815_j40870908789394_2_alg».proof.Proof.Gen.ReferenceIdeal.Read
import proofs.«121815_j40870908789394_2_alg».proof.Proof.Spec
import Idealize.ShloMosaic.Lib.ValueIdx
import Idealize.ShloMosaic.PureOps.Ideal.Laws

noncomputable section

open scoped BigOperators

namespace Cert.RefValue

open Cert.ReferenceIdeal Cert.ReferenceIdeal.Read Cert.Spec Idealize.ShloMosaic Idealize.ShloMosaic.ValueIdx

/-- The row's leave-one-out variance, as the reference computes it at entry `(b, r, d)`: the sums over axis 2 start
    from zero and run over the row's entries. -/
theorem row_apply (x0 : Arr) (b : Fin 8) (r d : Fin 2048) :
    val_main_v14 (F := Ideal) x0 (ix3 b r d)
      = looVar (Ideal.ofBits .f32 0x3A001002#32) (rowTot x0 b r) (rowTot (sq x0) b r) (x0 (ix3 b r d)) := by
  rw [val_main_v14_apply, val_main_v12_apply, val_main_v10_apply, val_main_v9_apply, val_main_v4_apply,
    val_main_v3_apply, val_main_v13_apply, val_main_v8_apply, val_main_v6_apply, val_main_v5_apply,
    val_main_v2_apply, val_main_v1_apply, val_main_v11_apply, val_main_v7_apply, val_main_v0_apply,
    val_main_cst_apply, val_main_cst_0_apply, val_main_cst_1_apply, val_main_cst_2_apply]
  simp only [Ideal.subf_def, Ideal.mulf_def, Ideal.ofBits_def, Ideal.ofBits_zero_f32, zero_add, val_main_v0_apply]
  have h1 : ∀ k : Fin 2048, idx_main_v3 (idx_main_v4 (idx_main_v9 (ix3 b r d))) k = ix3 b r k := fun k =>
    funext fun a => Fin.ext (by match a with | ⟨0, _⟩ => rfl | ⟨1, _⟩ => rfl | ⟨2, _⟩ => rfl)
  have h2 : ∀ k : Fin 2048, idx_main_v1 (idx_main_v2 (idx_main_v5 (ix3 b r d))) k = ix3 b r k := fun k =>
    funext fun a => Fin.ext (by match a with | ⟨0, _⟩ => rfl | ⟨1, _⟩ => rfl | ⟨2, _⟩ => rfl)
  simp only [h1, h2]
  rfl

/-- The column's leave-one-out variance, as the reference computes it at entry `(b, r, d)`: the sums over axis 1
    start from zero and run over the column's entries. -/
theorem col_apply (x0 : Arr) (b : Fin 8) (r d : Fin 2048) :
    val_main_v28 (F := Ideal) x0 (ix3 b r d)
      = looVar (Ideal.ofBits .f32 0x3A001002#32) (colTot x0 b d) (colTot (sq x0) b d) (x0 (ix3 b r d)) := by
  rw [val_main_v28_apply, val_main_v26_apply, val_main_v24_apply, val_main_v23_apply, val_main_v18_apply,
    val_main_v17_apply, val_main_v27_apply, val_main_v22_apply, val_main_v20_apply, val_main_v19_apply,
    val_main_v16_apply, val_main_v15_apply, val_main_v25_apply, val_main_v21_apply, val_main_v0_apply,
    val_main_cst_3_apply, val_main_cst_4_apply, val_main_cst_5_apply, val_main_cst_6_apply]
  simp only [Ideal.subf_def, Ideal.mulf_def, Ideal.ofBits_def, Ideal.ofBits_zero_f32, zero_add, val_main_v0_apply]
  have h1 : ∀ k : Fin 2048, idx_main_v17 (idx_main_v18 (idx_main_v23 (ix3 b r d))) k = ix3 b k d := fun k =>
    funext fun a => Fin.ext (by match a with | ⟨0, _⟩ => rfl | ⟨1, _⟩ => rfl | ⟨2, _⟩ => rfl)
  have h2 : ∀ k : Fin 2048, idx_main_v15 (idx_main_v16 (idx_main_v19 (ix3 b r d))) k = ix3 b k d := fun k =>
    funext fun a => Fin.ext (by match a with | ⟨0, _⟩ => rfl | ⟨1, _⟩ => rfl | ⟨2, _⟩ => rfl)
  simp only [h1, h2]
  rfl

/-- The reference's result is the specification's: the reversal of axis 1 reads row `2047 - r`, the added unit axis
    reads through, and the minimum is taken of the row's and the column's leave-one-out variances. -/
theorem ref_eq (x0 : (⟨Cert.ReferenceIdeal.S8x2048x2048, .f32⟩ : BufTy).Contents (Elt Ideal)) :
    Cert.ReferenceIdeal.Read.val_main_v31 (F := Ideal) x0 = Cert.Spec.G (Ideal.ofBits .f32 0x3A001002#32) x0 := by
  funext j
  obtain ⟨b, r, d, e, rfl⟩ : ∃ (b : Fin 8) (r d : Fin 2048) (e : Fin 1), j = ix4 b r d e :=
    ⟨j 0, j 1, j 2, j 3, eq_ix4 j⟩
  unfold val_main_v31 Host.reverse
  rw [val_main_v30_apply, val_main_v29_apply]
  have hj : idx_main_v30 (fun a => if a ∈ [(1 : Fin S8x2048x2048x1.rank)] then (ix4 b r d e a).rev else ix4 b r d e a)
      = ix3 b r.rev d :=
    funext fun a => Fin.ext (by match a with | ⟨0, _⟩ => rfl | ⟨1, _⟩ => rfl | ⟨2, _⟩ => rfl)
  rw [hj, row_apply, col_apply, Ideal.minimumf_def]
  rfl

end Cert.RefValue

end
-- ==== Proof.LibCarriedRow.lean ====
/-
  A row of running totals carried in a buffer, read back: general lemmas.

  Stores that each cover their whole buffer: a load of the whole buffer after such stores reads the value of the
  LAST one, whatever came before (`readCov_cons_unit_zero`; the library has the one-store case).

  A `[1, 1, c]` row kept in a buffer and used as a vector `[c]` or as a `[1, c]` row: the three shape casts read at
  an index (`cast_11c_c`, `cast_c_11c`, `cast_11c_1c`).

  On the extended reals, the sum of an `[n, c]` array along its FIRST axis reads, at column `d`, the sum over the
  `n` rows of the column's entries (`colSum_apply`): the column totals of a block of rows.

  All at any extents.
-/
import Idealize.ShloMosaic.Lib.Pipeline.Value
import Idealize.ShloMosaic.Lib.ValueIdx
import Idealize.ShloMosaic.PureOps.Ideal.Laws

noncomputable section

open scoped BigOperators

namespace Cert.CarriedRow

open Idealize.ShloMosaic Idealize.ShloMosaic.ValueIdx

section stores
variable {Val : EltTy → Type} {S : Shape} {e : EltTy}

/-- A load of the whole buffer, after stores of which the LAST covers the whole buffer, reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]
end stores

section layout
variable {α : Type}

/-- A `[1, 1, c]` row read as a vector. -/
theorem cast_11c_c {c : ℕ} (x : (⟨3, ![1, 1, c]⟩ : Shape).Idx → α) (h : (⟨3, ![1, 1, c]⟩ : Shape).ShapeCasts ⟨1, ![c]⟩)
    (d : Fin c) : shapeCast ⟨1, ![c]⟩ x h (ix1 d) = x (ix3 (0 : Fin 1) (0 : Fin 1) d) :=
  shapeCast_apply x h _ _ (by
    rw [Shape.rowMajor_val_three, Shape.rowMajor_val_one]
    show (0 * 1 + 0) * c + d.val = d.val
    simp)

/-- A vector read as a `[1, 1, c]` row. -/
theorem cast_c_11c {c : ℕ} (x : (⟨1, ![c]⟩ : Shape).Idx → α) (h : (⟨1, ![c]⟩ : Shape).ShapeCasts ⟨3, ![1, 1, c]⟩)
    (u v : Fin 1) (d : Fin c) : shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, c]` row read as a `[1, c]` row. -/
theorem cast_11c_1c {c : ℕ} (x : (⟨3, ![1, 1, c]⟩ : Shape).Idx → α) (h : (⟨3, ![1, 1, c]⟩ : Shape).ShapeCasts ⟨2, ![1, c]⟩)
    (u : Fin 1) (d : Fin c) : shapeCast ⟨2, ![1, c]⟩ x h (ix2 u d) = x (ix3 (0 : Fin 1) (0 : Fin 1) d) :=
  shapeCast_apply x h _ _ (by
    have hu : u.val = 0 := by omega
    rw [Shape.rowMajor_val_three, Shape.rowMajor_val_two]
    show (0 * 1 + 0) * c + d.val = u.val * c + d.val
    simp [hu])
end layout

/-- The sum of an `[n, c]` array along its first axis reads, at column `d`, the sum of the column's entries. -/
theorem colSum_apply {n c : ℕ} (src : FVec Ideal ⟨2, ![n, c]⟩ .f32)
    (h : (⟨2, ![n, c]⟩ : Shape).Reduces [0] ⟨1, ![c]⟩) (hφ : FKind.Formats .f32)
    (hacc : (0x00000000#32 : BitVec 32) = 0x00000000#32) (d : Fin c) :
    multiReduction .add [0] ⟨1, ![c]⟩ src 0x00000000#32 h hφ hacc (ix1 d) = ∑ p : Fin n, src (ix2 p d) := by
  refine (Ideal.multiReduction_add_single src 0x00000000#32 h hφ hacc (ix1 d)).trans ?_
  refine Finset.sum_congr rfl fun k _ => congrArg src (funext fun ax => Fin.ext ?_)
  match ax with
  | ⟨0, _⟩ => rfl
  | ⟨1, _⟩ => rfl

end Cert.CarriedRow

end
-- ==== Proof.KBody.lean ====
/-
  What one run of the kernel's body leaves, as values.

  At the first row tile of a matrix the body clears two rows of 2048 running totals, then walks the matrix's 2048
  rows 256 at a time: each block's column totals are added to the first row (`addCols`), the column totals of its
  squares to the second.  So the two rows end at the chain  ((0 + c₀) + c₁) + … + c₇  of the eight blocks' column
  totals (`colAcc`), of the entries and of their squares.  At every row tile the body then reads the tile's 256 rows
  (`tile`), the two rows of totals, and stores one function of the three (`tileOut`); at a later tile the rows of
  totals are the ones the first tile of the matrix left.

  Each store covers its whole buffer, so the last store to a buffer is what the buffer holds, and a load after a
  store reads that store's value (`CarriedRow.readCov_cons_unit_zero`).
-/
import proofs.«121815_j40870908789394_2_alg».proof.Proof.Gen.KernelIdeal.Frame
import proofs.«121815_j40870908789394_2_alg».proof.Proof.LibCarriedRow
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen Cert.CarriedRow

variable {F : FTy → Type} [FloatOps F]

theorem hz3 : (![0, 0, 0] : Fin 3 → Nat) = fun _ => 0 := funext fun a => by fin_cases a <;> rfl

/-- A row of running column totals with the column totals of a block of 256 rows added. -/
def addCols (blk : FVec F S256x2048 .f32) (acc : Vec F S1x1x2048 .f32) : Vec F S1x1x2048 .f32 :=
  shapeCast S1x1x2048 (addf (shapeCast S2048 acc Facts₀.shapeCasts_S1x1x2048_S2048)
    (multiReduction .add [0] S2048 blk 0x00000000#32 Facts₀.reduces_S256x2048_S2048 (.inl rfl) rfl))
    Facts₀.shapeCasts_S2048_S1x1x2048

/-- The 256 rows of the resident matrix that start at row `off 1`, as a 256 × 2048 block. -/
def rows (x : Vec F S1x2048x2048 .f32) (off : Fin 3 → Nat)
    (inb : ∀ a, off a + S1x256x2048.size a ≤ S1x2048x2048.size a) : FVec F S256x2048 .f32 :=
  shapeCast S256x2048 (View.ld x (Rect.unit (s := S1x2048x2048) off S1x256x2048.size inb))
    Facts₀.shapeCasts_S1x256x2048_S256x2048

/-- The row of zeros the totals start from. -/
def zeroRow : Vec F S1x1x2048 .f32 := k0_pay2

/-- The chain over the eight blocks, first to last, of the column totals of `g` of each block. -/
def colAcc (g : FVec F S256x2048 .f32 → FVec F S256x2048 .f32) (x : Vec F S1x2048x2048 .f32) : Vec F S1x1x2048 .f32 :=
  addCols (g (rows x ![0, 1792, 0] Facts₀.inb_S1x2048x2048_S1x256x2048_0_1792_0))
    (addCols (g (rows x ![0, 1536, 0] Facts₀.inb_S1x2048x2048_S1x256x2048_0_1536_0))
    (addCols (g (rows x ![0, 1280, 0] Facts₀.inb_S1x2048x2048_S1x256x2048_0_1280_0))
    (addCols (g (rows x ![0, 1024, 0] Facts₀.inb_S1x2048x2048_S1x256x2048_0_1024_0))
    (addCols (g (rows x ![0, 768, 0] Facts₀.inb_S1x2048x2048_S1x256x2048_0_768_0))
    (addCols (g (rows x ![0, 512, 0] Facts₀.inb_S1x2048x2048_S1x256x2048_0_512_0))
    (addCols (g (rows x ![0, 256, 0] Facts₀.inb_S1x2048x2048_S1x256x2048_0_256_0))
    (addCols (g (rows x ![0, 0, 0] Facts₀.inb_S1x2048x2048_S1x256x2048_0_0_0)) zeroRow)))))))

/-- The 256 rows of the resident matrix the row tile at grid point `i` works on. -/
def tile (i : grid0.Coords) (x : Vec F S1x2048x2048 .f32) : Vec F S1x256x2048 .f32 :=
  View.ld x (Rect.unit (s := S1x2048x2048) (k0_off1 i) S1x256x2048.size (Facts₀.k0_off1_inb i))

/-- What the body stores into the output block: one function of the tile and the two rows of totals. -/
def tileOut (t : Vec F S1x256x2048 .f32) (sc ssc : Vec F S1x1x2048 .f32) : Vec F S1x256x2048 .f32 :=
  k0_pay1 (k0_pay31 t sc ssc)

variable (c : Dev nD) (i : grid0.Coords) (a2 : Memref sig .tc .vmem S1x2048x2048 .f32) (h2 : a2.IsWhole)
  (a3 : Memref sig .tc .vmem S1x256x2048 .f32) (h3 : a3.IsWhole) (a4 : Memref sig .tc .vmem S1x1x2048 .f32) (h4 : a4.IsWhole)
  (a5 : Memref sig .tc .vmem S1x1x2048 .f32) (h5 : a5.IsWhole)

/-- At a matrix's first tile the first row of totals ends at the chain of the blocks' column totals, -/
theorem sumRow_first (hc : cond0_0 i) (x : Vec F S1x2048x2048 .f32) :
    sout0_A_0 c i a2 h2 a3 h3 a4 h4 a5 h5 hc x = colAcc (fun b => b) x := by
  unfold sout0_A_0
  rw [View.read_writes_eq_canon _ _ _ (scover0_A_0 c i a2 h2 a3 h3 a4 h4 a5 h5 hc x)]
  unfold kernelRun0_A
  dsimp only
  sl_unfold_words
  simp only [View.canon_cons_unit_zero (S := S1x1x2048) hz3, readCov_cons_unit_zero (S := S1x1x2048) _ hz3,
    View.readCov_unit_zero (S := S1x1x2048) _ hz3, View.readAt_eq_ld, h2.read_unread]
  rfl

/-- the second at the chain of the column totals of the blocks' squares, -/
theorem sqRow_first (hc : cond0_0 i) (x : Vec F S1x2048x2048 .f32) :
    sout0_A_1 c i a2 h2 a3 h3 a4 h4 a5 h5 hc x = colAcc (fun b => mulf b b) x := by
  unfold sout0_A_1
  rw [View.read_writes_eq_canon _ _ _ (scover0_A_1 c i a2 h2 a3 h3 a4 h4 a5 h5 hc x)]
  unfold kernelRun0_A
  dsimp only
  sl_unfold_words
  simp only [View.canon_cons_unit_zero (S := S1x1x2048) hz3, readCov_cons_unit_zero (S := S1x1x2048) _ hz3,
    View.readCov_unit_zero (S := S1x1x2048) _ hz3, View.readAt_eq_ld, h2.read_unread]
  rfl

/-- and the output block holds `tileOut` of the tile and those two rows. -/
theorem out_first (hc : cond0_0 i) (x : Vec F S1x2048x2048 .f32) :
    out0_A_1 c i a2 h2 a3 h3 a4 h4 a5 h5 hc x = tileOut (tile i x) (colAcc (fun b => b) x) (colAcc (fun b => mulf b b) x) := by
  unfold out0_A_1
  rw [View.read_writes_eq_canon _ _ _ (cover0_A_1 c i a2 h2 a3 h3 a4 h4 a5 h5 hc x)]
  unfold kernelRun0_A
  dsimp only
  sl_unfold_words
  simp only [View.canon_unit_zero (S := S1x256x2048) hz3, View.canon_cons_unit_zero (S := S1x256x2048) hz3,
    View.canon_cons_unit_zero (S := S1x1x2048) hz3, readCov_cons_unit_zero (S := S1x1x2048) _ hz3,
    View.readCov_unit_zero (S := S1x1x2048) _ hz3, View.readAt_eq_ld, h2.read_unread]
  rfl

/-- At a later tile the rows of totals are left as found, and the output block holds `tileOut` of the tile and them. -/
theorem out_later (hc : ¬cond0_0 i) (x : Vec F S1x2048x2048 .f32) (xs0 xs1 : Vec F S1x1x2048 .f32) :
    out0_B_1 c i a2 h2 a3 h3 a4 h4 a5 h5 hc x xs0 xs1 = tileOut (tile i x) xs0 xs1 := by
  unfold out0_B_1
  rw [View.read_writes_eq_canon _ _ _ (cover0_B_1 c i a2 h2 a3 h3 a4 h4 a5 h5 hc x xs0 xs1)]
  unfold kernelRun0_B
  dsimp only
  try sl_unfold_words
  simp only [View.canon_unit_zero (S := S1x256x2048) hz3, View.readAt_eq_ld, h2.read_unread, h4.read_unread, h5.read_unread,
    View.ld_unit_zero (S := S1x1x2048) hz3]
  rfl

end Cert.KernelIdeal.Body

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.KValue.lean ====
/-
  The body's values on the extended reals, read at an index.

  A block of 256 rows read at `(p, d)` is the resident matrix at row `start + p`, column `d`.  Adding a block's
  column totals to a row of running totals adds, at column `d`, the sum over the block's 256 rows.  So the chain
  over the eight blocks reads, at column `d`, zero plus the eight blocks' sums in turn, which is the sum over all
  2048 rows of the matrix (`Spec.chain_eq_sum`): the column's total.  The stored output block reads, at `(p, d)`,
  the smaller of the leave-one-out variance of the tile's row `p` (its total and total of squares taken along the
  row) and the one of column `d` (from the two rows of totals).
-/
import proofs.«121815_j40870908789394_2_alg».proof.Proof.KBody
import proofs.«121815_j40870908789394_2_alg».proof.Proof.Spec
import proofs.«121815_j40870908789394_2_alg».proof.Proof.LibRowBlocks
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.BodyValue

open Cert.KernelIdeal Cert.KernelIdeal.Gen Cert.KernelIdeal.Body Cert.RowBlocks Cert.CarriedRow

/-- The scale both programs multiply by: the float nearest 1/2047, as the extended real it denotes. -/
abbrev κ : EReal := Ideal.ofBits .f32 0x3A001002#32

/-- A block of 256 rows at `(p, d)` is the resident matrix at row `start + p`. -/
theorem rows_apply (x : Vec Ideal S1x2048x2048 .f32) (off : Fin 3 → Nat)
    (inb : ∀ a, off a + S1x256x2048.size a ≤ S1x2048x2048.size a) (h0 : off 0 = 0) (h2 : off 2 = 0)
    (p : Fin 256) (d r : Fin 2048) (hr : r.val = off 1 + p.val) :
    rows x off inb (ix2 p d) = x (ix3 (0 : Fin 1) r d) := by
  unfold rows
  rw [shapeCast_1ab_ab_apply]
  show x ((Rect.unit (s := S1x2048x2048) off S1x256x2048.size inb).idx (ix3 (0 : Fin 1) p d)) = _
  refine congrArg x (funext fun a => Fin.ext ?_)
  match a with
  | ⟨0, _⟩ => show off 0 + 1 * 0 = 0; rw [h0]
  | ⟨1, _⟩ => show off 1 + 1 * p.val = r.val; rw [hr, Nat.one_mul]
  | ⟨2, _⟩ => show off 2 + 1 * d.val = d.val; rw [h2, Nat.one_mul, Nat.zero_add]

/-- The block that starts at row `256 g` is group `g` of the matrix's rows. -/
theorem rows_grp (x : Vec Ideal S1x2048x2048 .f32) (g : Fin 8) (off : Fin 3 → Nat)
    (inb : ∀ a, off a + S1x256x2048.size a ≤ S1x2048x2048.size a) (h0 : off 0 = 0) (h1 : off 1 = 256 * g.val)
    (h2 : off 2 = 0) (p : Fin 256) (d : Fin 2048) :
    rows x off inb (ix2 p d) = x (ix3 (0 : Fin 1) (Spec.grp g p) d) :=
  rows_apply x off inb h0 h2 p d (Spec.grp g p) (by show 256 * g.val + p.val = off 1 + p.val; rw [h1])

/-- The row of zeros reads zero. -/
theorem zeroRow_apply (d : Fin 2048) : zeroRow (F := Ideal) (ix3 (0 : Fin 1) (0 : Fin 1) d) = 0 := by
  unfold zeroRow k0_pay2
  rw [shapeCast_self]
  exact Ideal.ofBits_zero_f32

/-- Adding a block's column totals adds, at column `d`, the sum over the block's rows. -/
theorem addCols_apply (blk : FVec Ideal S256x2048 .f32) (acc : Vec Ideal S1x1x2048 .f32) (d : Fin 2048) :
    addCols blk acc (ix3 (0 : Fin 1) (0 : Fin 1) d) = acc (ix3 (0 : Fin 1) (0 : Fin 1) d) + ∑ p : Fin 256, blk (ix2 p d) := by
  unfold addCols
  rw [cast_c_11c, addf_apply, cast_11c_c, colSum_apply]

/-- The chain over the eight blocks reads, at column `d`, the sum over the matrix's 2048 rows of `f` of the entry,
    when `g` of a block reads `f` of the block's entries. -/
theorem colAcc_apply (g : FVec Ideal S256x2048 .f32 → FVec Ideal S256x2048 .f32) (f : EReal → EReal)
    (hg : ∀ (b : FVec Ideal S256x2048 .f32) (j : S256x2048.Idx), g b j = f (b j))
    (x : Vec Ideal S1x2048x2048 .f32) (d : Fin 2048) :
    colAcc g x (ix3 (0 : Fin 1) (0 : Fin 1) d) = ∑ r : Fin 2048, f (x (ix3 (0 : Fin 1) r d)) := by
  unfold colAcc
  simp only [addCols_apply, zeroRow_apply, hg]
  rw [← Spec.chain_eq_sum fun r => f (x (ix3 (0 : Fin 1) r d))]
  simp only [rows_grp x 0 ![0, 0, 0] _ rfl rfl rfl, rows_grp x 1 ![0, 256, 0] _ rfl rfl rfl,
    rows_grp x 2 ![0, 512, 0] _ rfl rfl rfl, rows_grp x 3 ![0, 768, 0] _ rfl rfl rfl,
    rows_grp x 4 ![0, 1024, 0] _ rfl rfl rfl, rows_grp x 5 ![0, 1280, 0] _ rfl rfl rfl,
    rows_grp x 6 ![0, 1536, 0] _ rfl rfl rfl, rows_grp x 7 ![0, 1792, 0] _ rfl rfl rfl]

/-- The tile at grid point `i`, at `(p, k)`, is the resident matrix at row `256 i₁ + p`. -/
theorem tile_apply (i : grid0.Coords) (x : Vec Ideal S1x2048x2048 .f32) (p : Fin 256) (k r : Fin 2048)
    (hr : r.val = 256 * (i 1).val + p.val) : tile i x (ix3 (0 : Fin 1) p k) = x (ix3 (0 : Fin 1) r k) := by
  unfold tile
  show x ((Rect.unit (s := S1x2048x2048) (k0_off1 i) S1x256x2048.size (Facts₀.k0_off1_inb i)).idx (ix3 (0 : Fin 1) p k)) = _
  refine congrArg x (funext fun a => Fin.ext ?_)
  have e := k0_off1_eq i
  match a with
  | ⟨0, _⟩ => show k0_off1 i 0 + 1 * 0 = 0; rw [e]; rfl
  | ⟨1, _⟩ => show k0_off1 i 1 + 1 * p.val = r.val; rw [e, hr]; show 256 * (i 1).val + 1 * p.val = _; omega
  | ⟨2, _⟩ => show k0_off1 i 2 + 1 * k.val = k.val; rw [e]; show 0 + 1 * k.val = k.val; omega

/-- The stored block at `(p, d)`: the smaller of the leave-one-out variance along the tile's row `p` and the one
    read from the two rows of column totals at column `d`. -/
theorem tileOut_apply (t : Vec Ideal S1x256x2048 .f32) (sc ssc : Vec Ideal S1x1x2048 .f32) (p : Fin 256) (d : Fin 2048) :
    tileOut t sc ssc (ix3 (0 : Fin 1) p d)
      = min (Spec.looVar κ (∑ k : Fin 2048, t (ix3 (0 : Fin 1) p k))
              (∑ k : Fin 2048, t (ix3 (0 : Fin 1) p k) * t (ix3 (0 : Fin 1) p k)) (t (ix3 (0 : Fin 1) p d)))
          (Spec.looVar κ (sc (ix3 (0 : Fin 1) (0 : Fin 1) d)) (ssc (ix3 (0 : Fin 1) (0 : Fin 1) d)) (t (ix3 (0 : Fin 1) p d))) := by
  unfold tileOut k0_pay1
  rw [shapeCast_ab_1ab_apply]
  unfold k0_pay31
  simp only [minimumf_apply, subf_apply, mulf_apply, broadcast_apply, broadcastTo_col_apply, shapeCast_col_apply,
    broadcastTo_1b_ab_apply, cast_11c_1c, shapeCast_1ab_ab_apply]
  rw [rowSum_apply, rowSum_apply]
  simp only [mulf_apply, shapeCast_1ab_ab_apply]
  rfl

end Cert.KernelIdeal.BodyValue

end
-- ==== Proof.KPoints.lean ====
/-
  From the grid's points to the array the region writes.

  Point `t` of the 8 × 8 grid works on matrix `t / 8` and on its row tile `t % 8`: its input block is the whole
  matrix `t / 8`, its output block rows `256 (t % 8) … 256 (t % 8) + 255` of that matrix.  At a matrix's first tile
  the body leaves the matrix's column totals (of the entries, of their squares) in the two rows it carries, and the
  later tiles of the same matrix find them there unchanged: so after EVERY point the two rows hold the column totals
  of the point's matrix (`totals_at`, by induction on the point).  Hence the block a point writes back is, entry by
  entry, the specification's `core` at the entry's place in the array (`block_at`, `flushed_eq`); the 64 blocks tile
  the array (`final`).
-/
import proofs.«121815_j40870908789394_2_alg».proof.Proof.KValue
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen Cert.KernelIdeal.Body Cert.KernelIdeal.BodyValue

variable (m : (ℓ : Loc nD τ sig) → Buf (Elt Ideal) ℓ)

/-- The index maps over the grid: the input block is matrix `t / 8` whole, the output block its row tile `t % 8`,
    and the body's second grid coordinate is `t % 8`. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ (grid0.coords t 1).val = t.val % 8 :=
  (by decide +kernel : ∀ t : Fin grid0.N, _)

/-- The matrix a point works on. -/
def mat (n : ℕ) (hn : n < cfg0.N) : Fin 8 := ⟨n / 8, by have : cfg0.N = 64 := N_0; omega⟩

/-- The argument array as the region finds it. -/
abbrev X (c : Dev nD) : Spec.Arr := V m c main_arg0

/-- The input block of point `t` is matrix `t / 8`. -/
theorem iblk_apply (c : Dev nD) (t : Fin cfg0.N) (b : Fin 8) (hb : b.val = t.val / 8) (r d : Fin 2048) :
    (iblk m c 0 t : Vec Ideal S1x2048x2048 .f32) (ix3 (0 : Fin 1) r d) = X m c (ix3 b r d) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t 0 * 1 + 1 * 0 = b.val; rw [e0, hb]; omega
  | ⟨1, _⟩ => show win0_0.index t 1 * 2048 + 1 * r.val = r.val; rw [e1]; omega
  | ⟨2, _⟩ => show win0_0.index t 2 * 2048 + 1 * d.val = d.val; rw [e2]; omega

/-- At a matrix's first tile the two carried rows end at the matrix's column totals. -/
theorem totals_first (c : Dev nD) (t : Fin cfg0.N) (h0 : t.val % 8 = 0) (d : Fin 2048) :
    (outsAt0 m c t.val t.isLt).2.1 (ix3 (0 : Fin 1) (0 : Fin 1) d) = Spec.colTot (X m c) (mat t.val t.isLt) d
    ∧ (outsAt0 m c t.val t.isLt).2.2 (ix3 (0 : Fin 1) (0 : Fin 1) d) = Spec.colTot (Spec.sq (X m c)) (mat t.val t.isLt) d := by
  rw [outsAt0_A m c t h0]
  dsimp only
  constructor
  · refine (congrFun (sumRow_first c (grid0.coords t) (ms0_0 t) (hs0_0 t) (ms0_1 t) (hs0_1 t) scM0_0 (Memref.isWhole_whole _)
      scM0_1 (Memref.isWhole_whole _) ((hcond0_0 t).mpr h0) (iblk m c 0 t)) _).trans ?_
    refine (colAcc_apply (fun b => b) (fun v => v) (fun _ _ => rfl) (iblk m c 0 t) d).trans ?_
    exact Finset.sum_congr rfl fun r _ => iblk_apply m c t (mat t.val t.isLt) rfl r d
  · refine (congrFun (sqRow_first c (grid0.coords t) (ms0_0 t) (hs0_0 t) (ms0_1 t) (hs0_1 t) scM0_0 (Memref.isWhole_whole _)
      scM0_1 (Memref.isWhole_whole _) ((hcond0_0 t).mpr h0) (iblk m c 0 t)) _).trans ?_
    refine (colAcc_apply (fun b => mulf b b) (fun v => v * v) (fun _ _ => rfl) (iblk m c 0 t) d).trans ?_
    exact Finset.sum_congr rfl fun r _ => by
      rw [iblk_apply m c t (mat t.val t.isLt) rfl r d]; rfl

/-- After every point the two carried rows hold the column totals of the point's matrix. -/
theorem totals_at (c : Dev nD) : ∀ (n : ℕ) (hn : n < cfg0.N) (d : Fin 2048),
    (outsAt0 m c n hn).2.1 (ix3 (0 : Fin 1) (0 : Fin 1) d) = Spec.colTot (X m c) (mat n hn) d
    ∧ (outsAt0 m c n hn).2.2 (ix3 (0 : Fin 1) (0 : Fin 1) d) = Spec.colTot (Spec.sq (X m c)) (mat n hn) d
  | 0, hn, d => totals_first m c ⟨0, hn⟩ rfl d
  | n + 1, hn, d => by
    by_cases h0 : (n + 1) % 8 = 0
    · exact totals_first m c ⟨n + 1, hn⟩ h0 d
    · have ih := totals_at c n (Nat.lt_of_succ_lt hn) d
      have hm : mat (n + 1) hn = mat n (Nat.lt_of_succ_lt hn) := Fin.ext (by show (n + 1) / 8 = n / 8; omega)
      rw [outsAt0_B m c ⟨n + 1, hn⟩ h0, hm]
      exact ih

/-- What a point leaves in its output block: `tileOut` of its tile and the two carried rows as it leaves them. -/
theorem out_eq (c : Dev nD) (t : Fin cfg0.N) :
    (outsAt0 m c t.val t.isLt).1
      = tileOut (tile (grid0.coords t) (iblk m c 0 t)) (outsAt0 m c t.val t.isLt).2.1 (outsAt0 m c t.val t.isLt).2.2 := by
  by_cases h0 : t.val % 8 = 0
  · rw [outsAt0_A m c t h0]
    dsimp only
    rw [out_first, sumRow_first, sqRow_first]
  · rw [outsAt0_B m c t h0]
    dsimp only
    rw [out_later]
    rfl

/-- The block point `t` leaves, at `y`, is the specification's `core` at the entry's place `i` in the array. -/
theorem block_at (c : Dev nD) (t : Fin cfg0.N) (y : S1x256x2048.Idx) (i : S8x2048x2048.Idx)
    (h0 : (i 0).val = t.val / 8) (h1 : (i 1).val = 256 * (t.val % 8) + (y 1).val) (h2 : (i 2).val = (y 2).val) :
    (outsAt0 m c t.val t.isLt).1 y = Spec.core κ (X m c) i := by
  obtain ⟨u, p, d, rfl⟩ : ∃ (u : Fin 1) (p : Fin 256) (d : Fin 2048), y = ix3 u p d := ⟨y 0, y 1, y 2, eq_ix3 y⟩
  obtain ⟨b, r, d', rfl⟩ : ∃ (b : Fin 8) (r d' : Fin 2048), i = ix3 b r d' := ⟨i 0, i 1, i 2, eq_ix3 i⟩
  obtain rfl : u = 0 := Subsingleton.elim _ _
  obtain rfl : d' = d := Fin.ext h2
  obtain ⟨-, -, -, -, -, -, e6⟩ := idx_facts t
  have hrow : ∀ k : Fin 2048, tile (grid0.coords t) (iblk m c 0 t) (ix3 (0 : Fin 1) p k) = X m c (ix3 b r k) := fun k =>
    (tile_apply (grid0.coords t) (iblk m c 0 t) p k r (by rw [e6]; exact h1)).trans (iblk_apply m c t b h0 r k)
  have hb : mat t.val t.isLt = b := Fin.ext h0.symm
  rw [out_eq, tileOut_apply, (totals_at m c t.val t.isLt d').1, (totals_at m c t.val t.isLt d').2, hb]
  simp only [hrow]
  rfl

/-- What point `t` writes back is block `t` of `core` of the argument array. -/
theorem flushed_eq (c : Dev nD) (t : Fin cfg0.N) :
    (dats m 0 c).flushed 1 t = ((cfg0.win 1).blk t).view.read (Elt Ideal) (Spec.core κ (X m c)) := by
  show (cfg0.win 1).cut (grid0.coords t) ((dats m 0 c).after 1 t) = _
  rw [after0_1]
  obtain ⟨-, -, -, e3, e4, e5, -⟩ := idx_facts t
  funext y
  show (outsAt0 m c t.val t.isLt).1 y = Spec.core κ (X m c) (((cfg0.win 1).blk t).view.emb y)
  refine block_at m c t y _ ?_ ?_ ?_
  · show win0_1.index t 0 * 1 + 1 * (y 0).val = t.val / 8
    have hy : (y 0).val < 1 := (y 0).isLt
    rw [e3]; omega
  · show win0_1.index t 1 * 256 + 1 * (y 1).val = 256 * (t.val % 8) + (y 1).val
    rw [e4]; omega
  · show win0_1.index t 2 * 2048 + 1 * (y 2).val = (y 2).val
    rw [e5]; omega

/-- An index of the array is in point `t`'s block iff each coordinate is in the block's range on its axis. -/
theorem mem_blk (t : Fin cfg0.N) (i : S8x2048x2048.Idx) :
    i ∈ ((cfg0.win 1).blk t).view.set ↔ ∀ a : Fin 3, win0_1.index t a * S1x256x2048.size a ≤ (i a).val
      ∧ (i a).val < win0_1.index t a * S1x256x2048.size a + S1x256x2048.size a := by
  show i ∈ ((View.whole main_v0).slice (win0_1.rect t)).set ↔ _
  rw [View.set_slice_whole, Rect.mem_set_unit]
  exact Iff.rfl

/-- The array the region writes ends holding `core` of the argument array: row `r` of matrix `b` is in the block of
    point `8 b + r / 256`. -/
theorem final (c : Dev nD) : (dats m 0 c).arrAt 1 cfg0.N = Spec.core κ (m ((c : Thread nD τ).loc main_arg0)) :=
  (dats m 0 c).arrAt_eq_of_cover 1 (Spec.core κ (X m c)) (fun t _ => flushed_eq m c t) fun i => by
    have hi0 : (i 0).val < 8 := (i 0).isLt
    have hi1 : (i 1).val < 2048 := (i 1).isLt
    have hi2 : (i 2).val < 2048 := (i 2).isLt
    have hN : cfg0.N = 64 := N_0
    refine ⟨⟨8 * (i 0).val + (i 1).val / 256, by omega⟩, flush0_1 _, ?_⟩
    obtain ⟨-, -, -, e3, e4, e5, -⟩ := idx_facts ⟨8 * (i 0).val + (i 1).val / 256, by omega⟩
    rw [mem_blk]
    intro a
    match a with
    | ⟨0, _⟩ =>
      show win0_1.index _ 0 * 1 ≤ (i 0).val ∧ (i 0).val < win0_1.index _ 0 * 1 + 1
      rw [e3]; dsimp only; omega
    | ⟨1, _⟩ =>
      show win0_1.index _ 1 * 256 ≤ (i 1).val ∧ (i 1).val < win0_1.index _ 1 * 256 + 256
      rw [e4]; dsimp only; omega
    | ⟨2, _⟩ =>
      show win0_1.index _ 2 * 2048 ≤ (i 2).val ∧ (i 2).val < win0_1.index _ 2 * 2048 + 2048
      rw [e5]; omega

end Cert.KernelIdeal.RegionValue

end
-- ==== Proof.KTail.lean ====
/-
  The host tail of the kernel program.  After the region has left the array of leave-one-out minima (the
  specification's `core`), the program reverses axis 1 and adds a last axis of extent one.  Read at index
  `(b, r, d, 0)` the added axis reads through and the reversal reads row `2047 - r`: that is the specification's `G`.
  The run of the whole program then ends with its result at `G` of the argument and the argument unchanged.
-/
import proofs.«121815_j40870908789394_2_alg».proof.Proof.Gen.KernelIdeal.Frame
import proofs.«121815_j40870908789394_2_alg».proof.Proof.Spec
import Idealize.ShloMosaic.Lib.Pipeline.Value
import Idealize.ShloMosaic.Lib.StableHlo.Run
import Idealize.ShloMosaic.Lib.ValueIdx

noncomputable section

namespace Cert.KernelIdeal.TailValue

open Cert.KernelIdeal Cert.KernelIdeal.Gen Cert.Spec
open Idealize.ShloMosaic Idealize.ShloMosaic.TcCoe Idealize.ShloMosaic.ValueIdx Idealize.ShloMosaic.StableHlo Idealize.SL.Sem

/-- The index the added unit axis reads through at. -/
abbrev tidx (j : S8x2048x2048x1.Idx) : S8x2048x2048.Idx := fun a => match a with
  | ⟨0, _⟩ => ⟨(j 0).val, (j 0).isLt⟩
  | ⟨1, _⟩ => ⟨(j 1).val, (j 1).isLt⟩
  | ⟨2, _⟩ => ⟨(j 2).val, (j 2).isLt⟩

/-- Reversing the rows of `core` and adding a unit axis gives `G`. -/
theorem tail_eq (κ : EReal) (x : Cert.Spec.Arr) :
    broadcastInDim S8x2048x2048x1 ![0, 1, 2] Facts₀.bcast_S8x2048x2048_S8x2048x2048x1_0_1_2
      (Host.reverse [1] (Cert.Spec.core κ x)) = Cert.Spec.G κ x := by
  funext j
  rw [broadcastInDim_apply _ Facts₀.bcast_S8x2048x2048_S8x2048x2048x1_0_1_2 (Host.reverse [1] (Cert.Spec.core κ x)) j
    (tidx j) (fun a => match a with
      | ⟨0, _⟩ => by show (j 0).val = if (8 : Nat) = 1 then 0 else (j 0).val; rw [if_neg (by decide)]
      | ⟨1, _⟩ => by show (j 1).val = if (2048 : Nat) = 1 then 0 else (j 1).val; rw [if_neg (by decide)]
      | ⟨2, _⟩ => by show (j 2).val = if (2048 : Nat) = 1 then 0 else (j 2).val; rw [if_neg (by decide)])]
  rfl

/-- The whole program's run from the region's value: the region leaves `core` of the argument in its output array
    (`hfinal`), the two host operations after it turn that into `G` (`tail_eq`), and the argument is an input
    the region only reads. -/
theorem run_of_final (m : (ℓ : Loc nD τ sig) → Buf (Elt Ideal) ℓ) (ρ : Dev nD → PrngReg)
    (hfinal : ∀ c : Dev nD, (dats (F := Ideal) m 0 c).arrAt 1 cfg0.N
      = Cert.Spec.core (Ideal.ofBits .f32 0x3A001002#32) (m ((c : Thread nD τ).loc main_arg0))) :
    θ_run (defs (F := Ideal)) (onTc (τ := τ) (main (F := Ideal))) ⟨m, fun _ => 0, ρ⟩ fun r => ∀ c : Dev nD,
      r.2.mem ((c.tc : Thread nD τ).loc main_v2)
        = Cert.Spec.G (Ideal.ofBits .f32 0x3A001002#32) (m ((c.tc : Thread nD τ).loc main_arg0))
      ∧ r.2.mem ((c.tc : Thread nD τ).loc main_arg0) = m ((c.tc : Thread nD τ).loc main_arg0) := by
  refine (θ_run defs _ _).mono (fun r h c => ⟨?_, ?_⟩) (run_main m ρ)
  · refine ((h c).2 main_v2 (Pipeline.mem_restRefs_of main_v2 rfl (by decide))).trans ?_
    unfold Pipeline.afterTail₀
    show StableHlo.after hostOps1 _ (Proc.devRef .tc main_v2) = _
    after_results
    have e : Pipeline.withArrays (cfgs 0).spec c (V0 m c) (fun w => (dats m 0 c).arrAt w (cfgs 0).N)
          (Proc.devRef .tc main_v0)
        = Cert.Spec.core (Ideal.ofBits .f32 0x3A001002#32) (m ((c : Thread nD τ).loc main_arg0)) :=
      (Pipeline.withArrays_arr spec0 launch0.win.arr_inj c (V0 m c) (fun w => (dats m 0 c).arrAt w (cfgs 0).N) 1).trans
        (hfinal c)
    rw [e]
    exact tail_eq (Ideal.ofBits .f32 0x3A001002#32) (m ((c : Thread nD τ).loc main_arg0))
  · exact ((h c).1 0).trans (((dats m 0 c).arrAt_in 0 rfl _).trans ((A_eq m c 0).trans (V_main_arg0 m c)))

end Cert.KernelIdeal.TailValue

end
-- ==== Proof.lean ====
/-
  The certificate's claims.

  The kernel computes, for an array of 8 matrices of 2048 × 2048 floats, at every entry the smaller of the entry's
  leave-one-out row variance and leave-one-out column variance (single-pass: totals and totals of squares with the
  entry's own share removed, scaled by the float nearest 1/2047), then reverses the rows of every matrix and adds a
  last axis of extent one.  It walks an 8 × 8 grid: one matrix stays resident for its eight row tiles; at the first
  tile the matrix's column totals are gathered 256 rows at a time into two carried rows, and every tile then writes
  its 256 rows of the result.  The reference takes the same totals by one sum over each whole row and column.

  On the extended reals the two agree entry by entry.  The row totals are the same sums.  A column total gathered as
  ((0 + c₀) + c₁) + … + c₇ over the eight blocks of rows is the sum over all rows, because addition of extended reals
  is commutative and associative also at the infinities (`Spec.chain_eq_sum`); no entry needs to be finite, and the
  precondition is never opened.  Both programs multiply by the same float, so its value is never needed either.

  `Spec` states the result as one function `G` of the argument; `RefValue` reads the reference's run as `G`;
  `KBody` and `KValue` read what one run of the kernel's body leaves, `KPoints` carries that over the grid to the
  array the region writes, `KTail` through the row reversal after the region.  The three frames are the programs'
  runs with the results forgotten; the idealization rewrote nothing, so there is nothing to preserve.
-/
import proofs.«121815_j40870908789394_2_alg».proof.Defs
import proofs.«121815_j40870908789394_2_alg».proof.Proof.Gen.Kernel
import proofs.«121815_j40870908789394_2_alg».proof.Proof.Gen.Kernel.Skeleton
import proofs.«121815_j40870908789394_2_alg».proof.Proof.Gen.Kernel.Launch
import proofs.«121815_j40870908789394_2_alg».proof.Proof.Gen.Kernel.Points
import proofs.«121815_j40870908789394_2_alg».proof.Proof.Gen.Kernel.Frame
import proofs.«121815_j40870908789394_2_alg».proof.Proof.Gen.KernelIdeal
import proofs.«121815_j40870908789394_2_alg».proof.Proof.Gen.KernelIdeal.Skeleton
import proofs.«121815_j40870908789394_2_alg».proof.Proof.Gen.KernelIdeal.Launch
import proofs.«121815_j40870908789394_2_alg».proof.Proof.Gen.KernelIdeal.Points
import proofs.«121815_j40870908789394_2_alg».proof.Proof.Gen.KernelIdeal.Frame
import proofs.«121815_j40870908789394_2_alg».proof.Proof.Gen.ReferenceIdeal
import proofs.«121815_j40870908789394_2_alg».proof.Proof.Gen.ReferenceIdeal.Run
import proofs.«121815_j40870908789394_2_alg».proof.Proof.Gen.ReferenceIdeal.Read
import proofs.«121815_j40870908789394_2_alg».proof.Proof.Gen.Pre_finite_inputs
import proofs.«121815_j40870908789394_2_alg».proof.Proof.Spec
import proofs.«121815_j40870908789394_2_alg».proof.Proof.RefValue
import proofs.«121815_j40870908789394_2_alg».proof.Proof.KPoints
import proofs.«121815_j40870908789394_2_alg».proof.Proof.KTail
import Idealize.ShloMosaic.Adequacy
import Idealize.ShloMosaic.Init

noncomputable section

namespace Cert.Proof

open Idealize.ShloMosaic Idealize.SL.Sem

/-- The word-level kernel runs and leaves its argument as it found it. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at `G` of arguments that agree. -/
theorem algebraic : Cert.algebraic_KernelIdeal_ReferenceIdeal := by
  intro m ρ m' ρ' _ hagree
  refine ⟨fun c => Cert.Spec.G (Ideal.ofBits .f32 0x3A001002#32)
      (m ((c.tc : Thread Cert.KernelIdeal.nD Cert.KernelIdeal.τ).loc Cert.KernelIdeal.main_arg0)),
    Cert.KernelIdeal.TailValue.run_of_final m ρ (fun c => Cert.KernelIdeal.RegionValue.final m c), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v31_eq, Cert.RefValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
